-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x36x1024 : Shape := ⟨3, ![128, 36, 1024]⟩
abbrev S128x128x1024 : Shape := ⟨3, ![128, 128, 1024]⟩
abbrev S128x128 : Shape := ⟨2, ![128, 128]⟩
abbrev S_ : Shape := ⟨0, ![]⟩

class Facts : Prop where
  bcast_S_S128x36x1024 : S_.BroadcastsInDim S128x36x1024 (![] : Fin 0 → Fin S128x36x1024.rank)
  reducesTo_S128x36x1024_S_d0_1_2 : S128x36x1024.ReducesTo [0, 1, 2] S_
  h_S_ : 0 < S_.numel
  bcast_S_S128x128x1024 : S_.BroadcastsInDim S128x128x1024 (![] : Fin 0 → Fin S128x128x1024.rank)
  reducesTo_S128x128x1024_S_d0_1_2 : S128x128x1024.ReducesTo [0, 1, 2] S_

variable [Facts]

def fn {F : FTy → Type} [FloatOps F] (main_arg0 : FVec F S128x36x1024 .f32) (main_arg1 : FVec F S128x128x1024 .f32) (main_arg2 : IVec S128x128 1) : IVec S_ 1 :=
  let main_v0 : FVec F S128x36x1024 .f32 := Host.absf main_arg0
  let main_cst : FVec F S_ .f32 := constant S_ .f32 0x7F800000#32
  let main_v1 : FVec F S128x36x1024 .f32 := broadcastInDim S128x36x1024 ![] bcast_S_S128x36x1024 main_cst
  let main_v2 : IVec S128x36x1024 1 := cmpf .olt main_v0 main_v1
  let main_c : IVec S_ 1 := constantI S_ 1 1#1
  let main_v3 : IVec S_ 1 := (fun x v => Host.reduce IntOp.andi x v reducesTo_S128x36x1024_S_d0_1_2 h_S_) main_v2 main_c
  let main_v4 : FVec F S128x128x1024 .f32 := Host.absf main_arg1
  let main_cst_0 : FVec F S_ .f32 := constant S_ .f32 0x7F800000#32
  let main_v5 : FVec F S128x128x1024 .f32 := broadcastInDim S128x128x1024 ![] bcast_S_S128x128x1024 main_cst_0
  let main_v6 : IVec S128x128x1024 1 := cmpf .olt main_v4 main_v5
  let main_c_1 : IVec S_ 1 := constantI S_ 1 1#1
  let main_v7 : IVec S_ 1 := (fun x v => Host.reduce IntOp.andi x v reducesTo_S128x128x1024_S_d0_1_2 h_S_) main_v6 main_c_1
  let main_v8 : IVec S_ 1 := andi main_v3 main_v7
  main_v8
-- ==== Kernel.lean ====
abbrev S128x36x1024 : Shape := ⟨3, ![128, 36, 1024]⟩
abbrev S128x128x1024 : Shape := ⟨3, ![128, 128, 1024]⟩
abbrev S128x128 : Shape := ⟨2, ![128, 128]⟩
abbrev S8x36x1024 : Shape := ⟨3, ![8, 36, 1024]⟩
abbrev S8x128x1024 : Shape := ⟨3, ![8, 128, 1024]⟩
abbrev S8x36x128 : Shape := ⟨3, ![8, 36, 128]⟩
abbrev S8x36 : Shape := ⟨2, ![8, 36]⟩
abbrev S8x128 : Shape := ⟨2, ![8, 128]⟩
abbrev S8x36x1 : Shape := ⟨3, ![8, 36, 1]⟩
abbrev S8x1x128 : Shape := ⟨3, ![8, 1, 128]⟩

abbrev nBuf : Space → Nat
  | .hbm => 4
  | .vmem => 6
  | .smem => 0
  | _ => 0

abbrev bufTy : (tb : Table) → Fin (tcTables nBuf tb) → BufTy
  | .hbm, ⟨0, _⟩ => ⟨S128x36x1024, .f32⟩
  | .hbm, ⟨1, _⟩ => ⟨S128x128x1024, .f32⟩
  | .hbm, ⟨2, _⟩ => ⟨S128x128, .i1⟩
  | .hbm, ⟨3, _⟩ => ⟨S128x128x1024, .f32⟩
  | .local _ .vmem, ⟨0, _⟩ => ⟨S8x36x1024, .f32⟩
  | .local _ .vmem, ⟨1, _⟩ => ⟨S8x36x1024, .f32⟩
  | .local _ .vmem, ⟨2, _⟩ => ⟨S8x128x1024, .f32⟩
  | .local _ .vmem, ⟨3, _⟩ => ⟨S8x128x1024, .f32⟩
  | .local _ .vmem, ⟨4, _⟩ => ⟨S8x128x1024, .f32⟩
  | .local _ .vmem, ⟨5, _⟩ => ⟨S8x128x1024, .f32⟩
  | _, _ => ⟨S128x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x36x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x36x1024_S8x36x1024_0_0_0 : ∀ a, (![0, 0, 0] : Fin 3 → Nat) a + S8x36x1024.size a ≤ S8x36x1024.size a
  h_S8x36x1024 : 0 < S8x36x1024.numel
  inb_S8x128x1024_S8x128x1024_0_0_0 : ∀ a, (![0, 0, 0] : Fin 3 → Nat) a + S8x128x1024.size a ≤ S8x128x1024.size a
  h_S8x128x1024 : 0 < S8x128x1024.numel
  bitsLt_bf16_f32 : FTy.bits .bf16 < FTy.bits .f32
  reduces_S8x36x1024_S8x36 : S8x36x1024.Reduces [2] S8x36
  reduces_S8x128x1024_S8x128 : S8x128x1024.Reduces [2] S8x128
  shapeCasts_S8x36_S8x36x1 : S8x36.ShapeCasts S8x36x1
  shapeCasts_S8x128_S8x1x128 : S8x128.ShapeCasts S8x1x128
  broadcasts_S8x36x1_S8x36x128 : S8x36x1.Broadcasts S8x36x128
  broadcasts_S8x1x128_S8x36x128 : S8x1x128.Broadcasts S8x36x128
  reduces_S8x36x128_S8x128 : S8x36x128.Reduces [1] S8x128
  dot_S8x36x1024_S8x128x1024_S8x36x128_2_2_1_1_0_0_wf : DotDims.WF S8x36x1024 S8x128x1024 S8x36x128 [2] [2] [1] [1] [0] [0]
  dot_S8x36x128_S8x36x1024_S8x128x1024_1_1_2_2_0_0_wf : DotDims.WF S8x36x128 S8x36x1024 S8x128x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x36x1024.size a ≤ S128x36x1024.size a
  hwx0_0 : ∀ i : grid0.Coords, EltTy.bits .f32 = 32 ∨ (Rect.block (s := S128x36x1024) S8x36x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S128x128x1024.size a
  hwx0_1 : ∀ i : grid0.Coords, EltTy.bits .f32 = 32 ∨ (Rect.block (s := S128x128x1024) S8x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1024.size a ≤ S128x128x1024.size a
  hwx0_2 : ∀ i : grid0.Coords, EltTy.bits .f32 = 32 ∨ (Rect.block (s := S128x128x1024) S8x128x1024.size (cc0_transform_2 i) (hinb0_2 i)).WholeWords (EltTy.packing .f32)

variable [Facts₀]

def dot_S8x36x1024_S8x128x1024_S8x36x128_2_2_1_1_0_0 : DotDims S8x36x1024 S8x128x1024 S8x36x128 where
  lhsContracting := [2]
  rhsContracting := [2]
  lhsNonContracting := [1]
  rhsNonContracting := [1]
  lhsBatch := [0]
  rhsBatch := [0]
  wf := dot_S8x36x1024_S8x128x1024_S8x36x128_2_2_1_1_0_0_wf
def dot_S8x36x128_S8x36x1024_S8x128x1024_1_1_2_2_0_0 : DotDims S8x36x128 S8x36x1024 S8x128x1024 where
  lhsContracting := [1]
  rhsContracting := [1]
  lhsNonContracting := [2]
  rhsNonContracting := [2]
  lhsBatch := [0]
  rhsBatch := [0]
  wf := dot_S8x36x128_S8x36x1024_S8x128x1024_1_1_2_2_0_0_wf

abbrev win0_0 : Pipeline.Window sig grid0 :=
  Pipeline.Window.ofSpec (Memref.whole main_arg0) S8x36x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x36x1024 : Shape := ⟨3, ![128, 36, 1024]⟩
abbrev S128x128x1024 : Shape := ⟨3, ![128, 128, 1024]⟩
abbrev S128x128 : Shape := ⟨2, ![128, 128]⟩
abbrev S128x36x128 : Shape := ⟨3, ![128, 36, 128]⟩
abbrev S_ : Shape := ⟨0, ![]⟩
abbrev S128x36 : Shape := ⟨2, ![128, 36]⟩
abbrev S128x36x1 : Shape := ⟨3, ![128, 36, 1]⟩
abbrev S128x1x128 : Shape := ⟨3, ![128, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S128x36x1024, .f32⟩
  | .hbm, ⟨1, _⟩ => ⟨S128x128x1024, .f32⟩
  | .hbm, ⟨2, _⟩ => ⟨S128x128, .i1⟩
  | .hbm, ⟨3, _⟩ => ⟨S128x36x128, .f32⟩
  | .hbm, ⟨4, _⟩ => ⟨S128x36x1024, .f32⟩
  | .hbm, ⟨5, _⟩ => ⟨S_, .f32⟩
  | .hbm, ⟨6, _⟩ => ⟨S128x36, .f32⟩
  | .hbm, ⟨7, _⟩ => ⟨S128x36, .f32⟩
  | .hbm, ⟨8, _⟩ => ⟨S128x128x1024, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x36x1, .f32⟩
  | .hbm, ⟨13, _⟩ => ⟨S128x1x128, .f32⟩
  | .hbm, ⟨14, _⟩ => ⟨S128x36x128, .f32⟩
  | .hbm, ⟨15, _⟩ => ⟨S128x36x128, .f32⟩
  | .hbm, ⟨16, _⟩ => ⟨S128x36x128, .f32⟩
  | .hbm, ⟨17, _⟩ => ⟨S_, .f32⟩
  | .hbm, ⟨18, _⟩ => ⟨S128x36x128, .f32⟩
  | .hbm, ⟨19, _⟩ => ⟨S128x36x128, .f32⟩
  | .hbm, ⟨20, _⟩ => ⟨S128x36x128, .f32⟩
  | .hbm, ⟨21, _⟩ => ⟨S_, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x1x128, .f32⟩
  | .hbm, ⟨27, _⟩ => ⟨S128x36x128, .f32⟩
  | .hbm, ⟨28, _⟩ => ⟨S128x36x128, .f32⟩
  | .hbm, ⟨29, _⟩ => ⟨S128x36x128, .f32⟩
  | .hbm, ⟨30, _⟩ => ⟨S_, .f32⟩
  | .hbm, ⟨31, _⟩ => ⟨S128x128, .f32⟩
  | .hbm, ⟨32, _⟩ => ⟨S128x1x128, .f32⟩
  | .hbm, ⟨33, _⟩ => ⟨S128x36x128, .f32⟩
  | .hbm, ⟨34, _⟩ => ⟨S128x36x128, .f32⟩
  | .hbm, ⟨35, _⟩ => ⟨S128x128x1024, .f32⟩
  | _, _ => ⟨S128x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S128x36x1024_S128x36_d2 : S128x36x1024.ReducesTo [2] S128x36
  h_S_ : 0 < S_.numel
  reducesTo_S128x128x1024_S128x128_d2 : S128x128x1024.ReducesTo [2] S128x128
  bcast_S128x36_S128x36x1_0_1 : S128x36.BroadcastsInDim S128x36x1 (![0, 1] : Fin 2 → Fin S128x36x1.rank)
  bcast_S128x128_S128x1x128_0_2 : S128x128.BroadcastsInDim S128x1x128 (![0, 2] : Fin 2 → Fin S128x1x128.rank)
  bcast_S128x36x1_S128x36x128_0_1_2 : S128x36x1.BroadcastsInDim S128x36x128 (![0, 1, 2] : Fin 3 → Fin S128x36x128.rank)
  bcast_S128x1x128_S128x36x128_0_1_2 : S128x1x128.BroadcastsInDim S128x36x128 (![0, 1, 2] : Fin 3 → Fin S128x36x128.rank)
  bcast_S_S128x36x128 : S_.BroadcastsInDim S128x36x128 (![] : Fin 0 → Fin S128x36x128.rank)
  reducesTo_S128x36x128_S128x128_d1 : S128x36x128.ReducesTo [1] S128x128
  bcast_S_S128x128 : S_.BroadcastsInDim S128x128 (![] : Fin 0 → Fin S128x128.rank)
  dot_S128x36x1024_S128x128x1024_S128x36x128_2_2_1_1_0_0_wf : DotDims.WF S128x36x1024 S128x128x1024 S128x36x128 [2] [2] [1] [1] [0] [0]
  dot_S128x36x128_S128x36x1024_S128x128x1024_1_1_2_2_0_0_wf : DotDims.WF S128x36x128 S128x36x1024 S128x128x1024 [1] [1] [2] [2] [0] [0]

variable [Facts₀]

def dot_S128x36x1024_S128x128x1024_S128x36x128_2_2_1_1_0_0 : DotDims S128x36x1024 S128x128x1024 S128x36x128 where
  lhsContracting := [2]
  rhsContracting := [2]
  lhsNonContracting := [1]
  rhsNonContracting := [1]
  lhsBatch := [0]
  rhsBatch := [0]
  wf := dot_S128x36x1024_S128x128x1024_S128x36x128_2_2_1_1_0_0_wf
def dot_S128x36x128_S128x36x1024_S128x128x1024_1_1_2_2_0_0 : DotDims S128x36x128 S128x36x1024 S128x128x1024 where
  lhsContracting := [1]
  rhsContracting := [1]
  lhsNonContracting := [2]
  rhsNonContracting := [2]
  lhsBatch := [0]
  rhsBatch := [0]
  wf := dot_S128x36x128_S128x36x1024_S128x128x1024_1_1_2_2_0_0_wf

class Facts : Prop extends Facts₀ where

variable [Facts]
-- ==== Proof.KernelDots.lean ====
/-
  The kernel's two batched matrix products read at an index, over the extended reals. Both carry the batch axis 0 along
  and contract one axis into a zero accumulator, so an output entry is a plain sum of products:
  the score numerators `(p, n, t) ↦ ∑ k, l (p, n, k) · r (p, t, k)` (regions against tokens, contracting the feature
  axis), and the pooling `(p, t, d) ↦ ∑ n, l (p, n, t) · r (p, n, d)` (weights against regions, contracting the region
  axis). The contraction index of each has one axis, re-indexed by its coordinate.
-/
import proofs.«140039_j13975823581397_1_alg».proof.Proof.Gen.KernelIdeal
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.ValueIdx

/-! ### Regions against tokens: batch axis 0, contracting the feature axis 2 of both operands -/

theorem scoreDot_lhs0 (i : S8x36x128.Idx) (q : dot_S8x36x1024_S8x128x1024_S8x36x128_2_2_1_1_0_0.contr.Idx) :
    (dot_S8x36x1024_S8x128x1024_S8x36x128_2_2_1_1_0_0.lhsIdx i q 0).val = (i 0).val := by
  unfold DotDims.lhsIdx
  rw [dif_pos (show (0 : Fin S8x36x1024.rank) ∈ dot_S8x36x1024_S8x128x1024_S8x36x128_2_2_1_1_0_0.lhsBatch by decide)]
  rfl
theorem scoreDot_lhs1 (i : S8x36x128.Idx) (q : dot_S8x36x1024_S8x128x1024_S8x36x128_2_2_1_1_0_0.contr.Idx) :
    (dot_S8x36x1024_S8x128x1024_S8x36x128_2_2_1_1_0_0.lhsIdx i q 1).val = (i 1).val := by
  unfold DotDims.lhsIdx
  rw [dif_neg (show ¬(1 : Fin S8x36x1024.rank) ∈ dot_S8x36x1024_S8x128x1024_S8x36x128_2_2_1_1_0_0.lhsBatch by decide), dif_pos (show (1 : Fin S8x36x1024.rank) ∈ dot_S8x36x1024_S8x128x1024_S8x36x128_2_2_1_1_0_0.lhsNonContracting by decide)]
  rfl
theorem scoreDot_lhs2 (i : S8x36x128.Idx) (q : dot_S8x36x1024_S8x128x1024_S8x36x128_2_2_1_1_0_0.contr.Idx) :
    (dot_S8x36x1024_S8x128x1024_S8x36x128_2_2_1_1_0_0.lhsIdx i q 2).val = (q ⟨0, by decide⟩).val :=
  dot_S8x36x1024_S8x128x1024_S8x36x128_2_2_1_1_0_0.lhsIdx_val_of_single rfl i q
theorem scoreDot_rhs0 (i : S8x36x128.Idx) (q : dot_S8x36x1024_S8x128x1024_S8x36x128_2_2_1_1_0_0.contr.Idx) :
    (dot_S8x36x1024_S8x128x1024_S8x36x128_2_2_1_1_0_0.rhsIdx i q 0).val = (i 0).val := by
  unfold DotDims.rhsIdx
  rw [dif_pos (show (0 : Fin S8x128x1024.rank) ∈ dot_S8x36x1024_S8x128x1024_S8x36x128_2_2_1_1_0_0.rhsBatch by decide)]
  rfl
theorem scoreDot_rhs1 (i : S8x36x128.Idx) (q : dot_S8x36x1024_S8x128x1024_S8x36x128_2_2_1_1_0_0.contr.Idx) :
    (dot_S8x36x1024_S8x128x1024_S8x36x128_2_2_1_1_0_0.rhsIdx i q 1).val = (i 2).val := by
  unfold DotDims.rhsIdx
  rw [dif_neg (show ¬(1 : Fin S8x128x1024.rank) ∈ dot_S8x36x1024_S8x128x1024_S8x36x128_2_2_1_1_0_0.rhsBatch by decide), dif_pos (show (1 : Fin S8x128x1024.rank) ∈ dot_S8x36x1024_S8x128x1024_S8x36x128_2_2_1_1_0_0.rhsNonContracting by decide)]
  rfl
theorem scoreDot_rhs2 (i : S8x36x128.Idx) (q : dot_S8x36x1024_S8x128x1024_S8x36x128_2_2_1_1_0_0.contr.Idx) :
    (dot_S8x36x1024_S8x128x1024_S8x36x128_2_2_1_1_0_0.rhsIdx i q 2).val = (q ⟨0, by decide⟩).val :=
  dot_S8x36x1024_S8x128x1024_S8x36x128_2_2_1_1_0_0.rhsIdx_val_of_single rfl i q

/-- The score numerators: entry `(p, n, t)` is the inner product of region row `(p, n)` and token row `(p, t)`. -/
theorem scoreDot_apply {φ₁ φ₂ : FTy} (l : FVec Ideal S8x36x1024 φ₁) (r : FVec Ideal S8x128x1024 φ₂) (p : Fin 8) (n : Fin 36) (t : Fin 128) :
    matmul dot_S8x36x1024_S8x128x1024_S8x36x128_2_2_1_1_0_0 none l r (constant S8x36x128 .f32 0x00000000#32) (ix3 p n t)
      = ∑ k : Fin 1024, l (ix3 p n k) * r (ix3 p t k) := by
  show FloatOps.matmul dot_S8x36x1024_S8x128x1024_S8x36x128_2_2_1_1_0_0 none l r (constant S8x36x128 .f32 0x00000000#32) (ix3 p n t) = _
  rw [Ideal.matmul_constant_zero_apply, ← Equiv.sum_comp (contrEquiv1 dot_S8x36x1024_S8x128x1024_S8x36x128_2_2_1_1_0_0 1024 rfl rfl).symm]
  refine Finset.sum_congr rfl fun k _ => ?_
  have hk := contrEquiv1_symm_val dot_S8x36x1024_S8x128x1024_S8x36x128_2_2_1_1_0_0 1024 rfl rfl k
  have el : dot_S8x36x1024_S8x128x1024_S8x36x128_2_2_1_1_0_0.lhsIdx (ix3 p n t) ((contrEquiv1 dot_S8x36x1024_S8x128x1024_S8x36x128_2_2_1_1_0_0 1024 rfl rfl).symm k) = ix3 p n k := funext fun a => Fin.ext (by
    match a with
    | ⟨0, _⟩ => exact scoreDot_lhs0 _ _
    | ⟨1, _⟩ => exact scoreDot_lhs1 _ _
    | ⟨2, _⟩ => exact (scoreDot_lhs2 _ _).trans hk)
  have er : dot_S8x36x1024_S8x128x1024_S8x36x128_2_2_1_1_0_0.rhsIdx (ix3 p n t) ((contrEquiv1 dot_S8x36x1024_S8x128x1024_S8x36x128_2_2_1_1_0_0 1024 rfl rfl).symm k) = ix3 p t k := funext fun a => Fin.ext (by
    match a with
    | ⟨0, _⟩ => exact scoreDot_rhs0 _ _
    | ⟨1, _⟩ => exact scoreDot_rhs1 _ _
    | ⟨2, _⟩ => exact (scoreDot_rhs2 _ _).trans hk)
  rw [el, er]

/-! ### Weights against regions: batch axis 0, contracting the region axis 1 of both operands -/

theorem poolDot_lhs0 (i : S8x128x1024.Idx) (q : dot_S8x36x128_S8x36x1024_S8x128x1024_1_1_2_2_0_0.contr.Idx) :
    (dot_S8x36x128_S8x36x1024_S8x128x1024_1_1_2_2_0_0.lhsIdx i q 0).val = (i 0).val := by
  unfold DotDims.lhsIdx
  rw [dif_pos (show (0 : Fin S8x36x128.rank) ∈ dot_S8x36x128_S8x36x1024_S8x128x1024_1_1_2_2_0_0.lhsBatch by decide)]
  rfl
theorem poolDot_lhs1 (i : S8x128x1024.Idx) (q : dot_S8x36x128_S8x36x1024_S8x128x1024_1_1_2_2_0_0.contr.Idx) :
    (dot_S8x36x128_S8x36x1024_S8x128x1024_1_1_2_2_0_0.lhsIdx i q 1).val = (q ⟨0, by decide⟩).val :=
  dot_S8x36x128_S8x36x1024_S8x128x1024_1_1_2_2_0_0.lhsIdx_val_of_single rfl i q
theorem poolDot_lhs2 (i : S8x128x1024.Idx) (q : dot_S8x36x128_S8x36x1024_S8x128x1024_1_1_2_2_0_0.contr.Idx) :
    (dot_S8x36x128_S8x36x1024_S8x128x1024_1_1_2_2_0_0.lhsIdx i q 2).val = (i 1).val := by
  unfold DotDims.lhsIdx
  rw [dif_neg (show ¬(2 : Fin S8x36x128.rank) ∈ dot_S8x36x128_S8x36x1024_S8x128x1024_1_1_2_2_0_0.lhsBatch by decide), dif_pos (show (2 : Fin S8x36x128.rank) ∈ dot_S8x36x128_S8x36x1024_S8x128x1024_1_1_2_2_0_0.lhsNonContracting by decide)]
  rfl
theorem poolDot_rhs0 (i : S8x128x1024.Idx) (q : dot_S8x36x128_S8x36x1024_S8x128x1024_1_1_2_2_0_0.contr.Idx) :
    (dot_S8x36x128_S8x36x1024_S8x128x1024_1_1_2_2_0_0.rhsIdx i q 0).val = (i 0).val := by
  unfold DotDims.rhsIdx
  rw [dif_pos (show (0 : Fin S8x36x1024.rank) ∈ dot_S8x36x128_S8x36x1024_S8x128x1024_1_1_2_2_0_0.rhsBatch by decide)]
  rfl
theorem poolDot_rhs1 (i : S8x128x1024.Idx) (q : dot_S8x36x128_S8x36x1024_S8x128x1024_1_1_2_2_0_0.contr.Idx) :
    (dot_S8x36x128_S8x36x1024_S8x128x1024_1_1_2_2_0_0.rhsIdx i q 1).val = (q ⟨0, by decide⟩).val :=
  dot_S8x36x128_S8x36x1024_S8x128x1024_1_1_2_2_0_0.rhsIdx_val_of_single rfl i q
theorem poolDot_rhs2 (i : S8x128x1024.Idx) (q : dot_S8x36x128_S8x36x1024_S8x128x1024_1_1_2_2_0_0.contr.Idx) :
    (dot_S8x36x128_S8x36x1024_S8x128x1024_1_1_2_2_0_0.rhsIdx i q 2).val = (i 2).val := by
  unfold DotDims.rhsIdx
  rw [dif_neg (show ¬(2 : Fin S8x36x1024.rank) ∈ dot_S8x36x128_S8x36x1024_S8x128x1024_1_1_2_2_0_0.rhsBatch by decide), dif_pos (show (2 : Fin S8x36x1024.rank) ∈ dot_S8x36x128_S8x36x1024_S8x128x1024_1_1_2_2_0_0.rhsNonContracting by decide)]
  rfl

/-- The pooling: entry `(p, t, d)` is the sum over the regions `n` of weight `(p, n, t)` times feature `(p, n, d)`. -/
theorem poolDot_apply {φ₁ φ₂ : FTy} (l : FVec Ideal S8x36x128 φ₁) (r : FVec Ideal S8x36x1024 φ₂) (p : Fin 8) (t : Fin 128) (d : Fin 1024) :
    matmul dot_S8x36x128_S8x36x1024_S8x128x1024_1_1_2_2_0_0 none l r (constant S8x128x1024 .f32 0x00000000#32) (ix3 p t d)
      = ∑ n : Fin 36, l (ix3 p n t) * r (ix3 p n d) := by
  show FloatOps.matmul dot_S8x36x128_S8x36x1024_S8x128x1024_1_1_2_2_0_0 none l r (constant S8x128x1024 .f32 0x00000000#32) (ix3 p t d) = _
  rw [Ideal.matmul_constant_zero_apply, ← Equiv.sum_comp (contrEquiv1 dot_S8x36x128_S8x36x1024_S8x128x1024_1_1_2_2_0_0 36 rfl rfl).symm]
  refine Finset.sum_congr rfl fun k _ => ?_
  have hk := contrEquiv1_symm_val dot_S8x36x128_S8x36x1024_S8x128x1024_1_1_2_2_0_0 36 rfl rfl k
  have el : dot_S8x36x128_S8x36x1024_S8x128x1024_1_1_2_2_0_0.lhsIdx (ix3 p t d) ((contrEquiv1 dot_S8x36x128_S8x36x1024_S8x128x1024_1_1_2_2_0_0 36 rfl rfl).symm k) = ix3 p k t := funext fun a => Fin.ext (by
    match a with
    | ⟨0, _⟩ => exact poolDot_lhs0 _ _
    | ⟨1, _⟩ => exact (poolDot_lhs1 _ _).trans hk
    | ⟨2, _⟩ => exact poolDot_lhs2 _ _)
  have er : dot_S8x36x128_S8x36x1024_S8x128x1024_1_1_2_2_0_0.rhsIdx (ix3 p t d) ((contrEquiv1 dot_S8x36x128_S8x36x1024_S8x128x1024_1_1_2_2_0_0 36 rfl rfl).symm k) = ix3 p k d := funext fun a => Fin.ext (by
    match a with
    | ⟨0, _⟩ => exact poolDot_rhs0 _ _
    | ⟨1, _⟩ => exact (poolDot_rhs1 _ _).trans hk
    | ⟨2, _⟩ => exact poolDot_rhs2 _ _)
  rw [el, er]

end Cert.KernelIdeal.Bridge

end
-- ==== Proof.LibKeepdims3.lean ====
/-
  Rank-3 vectors [a, b, c] with a kept unit last axis, read at an index: the cast of an [a, b] vector to [a, b, 1], the
  broadcast of an [a, b, 1] vector along the last axis of [a, b, c], a length-c vector cast to [1, 1, c] and broadcast
  to [a, b, c], the sum over the last axis over the extended reals, and the reshapes between [a, b, c] and [a·b, c]
  that flatten and restore the two leading axes. Each says which operand entry (or entries) a result entry reads.
-/
import Idealize.ShloMosaic.Lib.Pipeline.Value
import Idealize.ShloMosaic.Lib.ValueIdx
import Idealize.ShloMosaic.PureOps.Ideal.Laws

noncomputable section

namespace Cert.LibKeepdims3

open Idealize.ShloMosaic Idealize.ShloMosaic.ValueIdx

variable {α : Type} {a b c : ℕ}

/-- Entry `(p, n, 0)` of the cast of an [a, b] vector to [a, b, 1] is the vector's entry `(p, n)`: the same row-major
    position. -/
theorem shapeCast_keep_apply (x : (⟨2, ![a, b]⟩ : Shape).Idx → α) (h : (⟨2, ![a, b]⟩ : Shape).ShapeCasts ⟨3, ![a, b, 1]⟩)
    (p : Fin a) (n : Fin b) : shapeCast ⟨3, ![a, b, 1]⟩ x h (ix3 p n (0 : Fin 1)) = x (ix2 p n) :=
  shapeCast_apply x h (ix3 p n (0 : Fin 1)) (ix2 p n) (by
    rw [Shape.rowMajor_val_two, Shape.rowMajor_val_three]
    show p.val * b + n.val = (p.val * b + n.val) * 1 + 0
    omega)

/-- Entry `(p, n, d)` of an [a, b, 1] vector broadcast along the last axis is its entry `(p, n, 0)`. -/
theorem broadcastTo_lane_apply (x : (⟨3, ![a, b, 1]⟩ : Shape).Idx → α) (h : (⟨3, ![a, b, 1]⟩ : Shape).Broadcasts ⟨3, ![a, b, c]⟩)
    (p : Fin a) (n : Fin b) (d : Fin c) : broadcastTo ⟨3, ![a, b, c]⟩ x h (ix3 p n d) = x (ix3 p n (0 : Fin 1)) :=
  broadcastTo_apply x h (ix3 p n d) (ix3 p n (0 : Fin 1)) (fun k => by
    match k with
    | ⟨0, _⟩ =>
      show p.val = if a = 1 then 0 else p.val
      have := p.isLt
      split <;> omega
    | ⟨1, _⟩ =>
      show n.val = if b = 1 then 0 else n.val
      have := n.isLt
      split <;> omega
    | ⟨2, _⟩ => rfl)

/-- Entry `(0, 0, d)` of the cast of a length-c vector to [1, 1, c] is the vector's entry `d`. -/
theorem shapeCast_feat_apply (x : (⟨1, ![c]⟩ : Shape).Idx → α) (h : (⟨1, ![c]⟩ : Shape).ShapeCasts ⟨3, ![1, 1, c]⟩) (d : Fin c) :
    shapeCast ⟨3, ![1, 1, c]⟩ x h (ix3 (0 : Fin 1) (0 : Fin 1) d) = x (ix1 d) :=
  shapeCast_apply x h (ix3 (0 : Fin 1) (0 : Fin 1) d) (ix1 d) (by
    rw [Shape.rowMajor_val_one, Shape.rowMajor_val_three]
    show d.val = (0 * 1 + 0) * c + d.val
    omega)

/-- Entry `(p, n, d)` of a [1, 1, c] vector broadcast to [a, b, c] is its entry `(0, 0, d)`. -/
theorem broadcastTo_feat_apply (x : (⟨3, ![1, 1, c]⟩ : Shape).Idx → α) (h : (⟨3, ![1, 1, c]⟩ : Shape).Broadcasts ⟨3, ![a, b, c]⟩)
    (p : Fin a) (n : Fin b) (d : Fin c) : broadcastTo ⟨3, ![a, b, c]⟩ x h (ix3 p n d) = x (ix3 (0 : Fin 1) (0 : Fin 1) d) :=
  broadcastTo_apply x h (ix3 p n d) (ix3 (0 : Fin 1) (0 : Fin 1) d) (fun k => by
    match k with
    | ⟨0, _⟩ => rfl
    | ⟨1, _⟩ => rfl
    | ⟨2, _⟩ =>
      show d.val = if c = 1 then 0 else d.val
      have := d.isLt
      split <;> omega)

/-- The reduced index `(p, n)` of a reduction over the last axis with the coordinate `k` put back is `(p, n, k)`. -/
theorem lift_lane (h : (⟨3, ![a, b, c]⟩ : Shape).Reduces [2] ⟨2, ![a, b]⟩) (p : Fin a) (n : Fin b) (k : Fin c) :
    h.lift (ix2 p n) k = ix3 p n k := by
  funext e; apply Fin.ext
  fin_cases e <;> rfl

variable {φ : FTy}

/-- A sum over the last axis at `(p, n)` is the sum of the entries `(p, n, k)`. -/
theorem lanesum_apply (src : FVec Ideal ⟨3, ![a, b, c]⟩ φ) (acc : BitVec φ.bits) (h : (⟨3, ![a, b, c]⟩ : Shape).Reduces [2] ⟨2, ![a, b]⟩)
    (hφ : FKind.Formats φ) (hacc : acc = FKind.add.neutral φ hφ) (p : Fin a) (n : Fin b) :
    multiReduction .add [2] ⟨2, ![a, b]⟩ src acc h hφ hacc (ix2 p n) = ∑ k : Fin c, src (ix3 p n k) :=
  (Ideal.multiReduction_add_single src acc h hφ hacc (ix2 p n)).trans
    (Finset.sum_congr rfl fun k _ => congrArg src (lift_lane h p n k))

/-- Row `q`, column `k` of an [a, b, c] vector flattened to [m, c] (m = a·b) is its entry `(p, n, k)` when `q = p·b + n`. -/
theorem shapeCast_flat_apply {m : ℕ} (x : (⟨3, ![a, b, c]⟩ : Shape).Idx → α) (h : (⟨3, ![a, b, c]⟩ : Shape).ShapeCasts ⟨2, ![m, c]⟩)
    (p : Fin a) (n : Fin b) (k : Fin c) (q : Fin m) (hq : q.val = p.val * b + n.val) :
    shapeCast ⟨2, ![m, c]⟩ x h (ix2 q k) = x (ix3 p n k) :=
  shapeCast_apply x h (ix2 q k) (ix3 p n k) (by
    rw [Shape.rowMajor_val_two, Shape.rowMajor_val_three]
    show (p.val * b + n.val) * c + k.val = q.val * c + k.val
    rw [hq])

/-- Entry `(p, n, k)` of an [m, c] vector restored to [a, b, c] (m = a·b) is its row `q = p·b + n`, column `k`. -/
theorem shapeCast_unflat_apply {m : ℕ} (x : (⟨2, ![m, c]⟩ : Shape).Idx → α) (h : (⟨2, ![m, c]⟩ : Shape).ShapeCasts ⟨3, ![a, b, c]⟩)
    (p : Fin a) (n : Fin b) (k : Fin c) (q : Fin m) (hq : q.val = p.val * b + n.val) :
    shapeCast ⟨3, ![a, b, c]⟩ x h (ix3 p n k) = x (ix2 q k) :=
  shapeCast_apply x h (ix3 p n k) (ix2 q k) (by
    rw [Shape.rowMajor_val_two, Shape.rowMajor_val_three]
    show q.val * c + k.val = (p.val * b + n.val) * c + k.val
    rw [hq])

end Cert.LibKeepdims3

end
-- ==== Proof.LibMidAxis3.lean ====
/-
  Rank-3 vectors [a, b, c] with the MIDDLE axis kept as a unit axis or reduced away, read at an index: the cast of an
  [a, c] vector to [a, 1, c], the broadcast of an [a, 1, c] vector along the middle axis of [a, b, c], and the sum and
  the maximum over the middle axis over the extended reals — the vector unit's reductions and the host's one-operand
  reduce with a maximum body. Each says which operand entry (or entries) a result entry reads.
-/
import Idealize.ShloMosaic.Lib.Pipeline.Value
import Idealize.ShloMosaic.Lib.ValueIdx
import Idealize.ShloMosaic.PureOps.Ideal.Laws

noncomputable section

namespace Cert.LibMidAxis3

open Idealize.ShloMosaic Idealize.ShloMosaic.ValueIdx

variable {α : Type} {a b c : ℕ}

/-- Entry `(p, 0, d)` of the cast of an [a, c] vector to [a, 1, c] is the vector's entry `(p, d)`: the same row-major
    position. -/
theorem shapeCast_mid_apply (x : (⟨2, ![a, c]⟩ : Shape).Idx → α) (h : (⟨2, ![a, c]⟩ : Shape).ShapeCasts ⟨3, ![a, 1, c]⟩)
    (p : Fin a) (d : Fin c) : shapeCast ⟨3, ![a, 1, c]⟩ x h (ix3 p (0 : Fin 1) d) = x (ix2 p d) :=
  shapeCast_apply x h (ix3 p (0 : Fin 1) d) (ix2 p d) (by
    rw [Shape.rowMajor_val_two, Shape.rowMajor_val_three]
    show p.val * c + d.val = (p.val * 1 + 0) * c + d.val
    rw [Nat.mul_one, Nat.add_zero])

/-- Entry `(p, n, d)` of an [a, 1, c] vector broadcast along the middle axis is its entry `(p, 0, d)`. -/
theorem broadcastTo_mid_apply (x : (⟨3, ![a, 1, c]⟩ : Shape).Idx → α) (h : (⟨3, ![a, 1, c]⟩ : Shape).Broadcasts ⟨3, ![a, b, c]⟩)
    (p : Fin a) (n : Fin b) (d : Fin c) : broadcastTo ⟨3, ![a, b, c]⟩ x h (ix3 p n d) = x (ix3 p (0 : Fin 1) d) :=
  broadcastTo_apply x h (ix3 p n d) (ix3 p (0 : Fin 1) d) (fun k => by
    match k with
    | ⟨0, _⟩ =>
      show p.val = if a = 1 then 0 else p.val
      have := p.isLt
      split <;> omega
    | ⟨1, _⟩ => rfl
    | ⟨2, _⟩ =>
      show d.val = if c = 1 then 0 else d.val
      have := d.isLt
      split <;> omega)

/-- An [a, c] vector cast to [a, 1, c] and broadcast along the middle axis: entry `(p, n, d)` is the vector's `(p, d)`. -/
theorem keepMid_apply (x : (⟨2, ![a, c]⟩ : Shape).Idx → α) (h : (⟨2, ![a, c]⟩ : Shape).ShapeCasts ⟨3, ![a, 1, c]⟩)
    (h' : (⟨3, ![a, 1, c]⟩ : Shape).Broadcasts ⟨3, ![a, b, c]⟩) (p : Fin a) (n : Fin b) (d : Fin c) :
    broadcastTo ⟨3, ![a, b, c]⟩ (shapeCast ⟨3, ![a, 1, c]⟩ x h) h' (ix3 p n d) = x (ix2 p d) :=
  (broadcastTo_mid_apply _ h' p n d).trans (shapeCast_mid_apply x h p d)

/-- The reduced index `(p, d)` of a reduction over the middle axis with the coordinate `k` put back is `(p, k, d)`. -/
theorem lift_mid (h : (⟨3, ![a, b, c]⟩ : Shape).Reduces [1] ⟨2, ![a, c]⟩) (p : Fin a) (d : Fin c) (k : Fin b) :
    h.lift (ix2 p d) k = ix3 p k d := by
  funext e; apply Fin.ext
  fin_cases e <;> rfl

variable {φ : FTy}

/-- A sum over the middle axis at `(p, d)` is the sum of the entries `(p, k, d)`. -/
theorem midsum_apply (src : FVec Ideal ⟨3, ![a, b, c]⟩ φ) (acc : BitVec φ.bits) (h : (⟨3, ![a, b, c]⟩ : Shape).Reduces [1] ⟨2, ![a, c]⟩)
    (hφ : FKind.Formats φ) (hacc : acc = FKind.add.neutral φ hφ) (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (lift_mid h p d k))

/-- A maximum over the middle axis at `(p, d)` is the fold of `max`, from the accumulator's value, over the entries
    `(p, k, d)`. -/
theorem midmax_apply (src : FVec Ideal ⟨3, ![a, b, c]⟩ φ) (acc : BitVec φ.bits) (h : (⟨3, ![a, b, c]⟩ : Shape).Reduces [1] ⟨2, ![a, c]⟩)
    (hφ : FKind.Formats φ) (hacc : acc = FKind.maximumf.neutral φ hφ) (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (congrArg (fun f : Fin b → EReal => (Finset.univ : Finset (Fin b)).fold max (Ideal.ofBits φ acc) f)
      (funext fun k => congrArg src (lift_mid h p d k)))

/-- The host's one-operand reduce with a maximum body over the middle axis at `(p, d)`: the fold of `max`, from the
    initial value, over the entries `(p, k, d)`. -/
theorem hostMidmax_apply {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (congrArg (fun f : Fin b → EReal => (Finset.univ : Finset (Fin b)).fold max (init (Shape.Idx.first hu)) f)
      (funext fun k => congrArg x (lift_mid h p d k)))

end Cert.LibMidAxis3

end
-- ==== Proof.Spec.lean ====
/-
  Cosine-similarity pooling of one batch element, as one function of coordinate tables over the extended reals.
  Regions `x : R × D`, caption tokens `y : T × D`. The score of region `r` and token `t` is the inner product of the two
  rows divided by the product of their Euclidean norms, floored at a small positive constant; the weights are the
  softmax of the scores over the regions, token by token (the maximum subtracted before the exponential); the result at
  `(t, d)` is the weighted sum over the regions of `x r d`. Nothing here is evaluated: the constants stay as the words
  both programs print.
-/
import Idealize.ShloMosaic.PureOps.Ideal
import Idealize.ShloMosaic.Lib.ValueIdx

noncomputable section

namespace Cert.CosinePool

open Idealize.ShloMosaic Idealize.ShloMosaic.ValueIdx

/-- Batch row `p` of a rank-3 table `[a, b, c]`, as the `b × c` table of its rows. -/
def slab {a b c : ℕ} (v : (⟨3, ![a, b, c]⟩ : Shape).Idx → EReal) (p : Fin a) : Fin b → Fin c → EReal :=
  fun n k => v (ix3 p n k)

/-- The floor under the product of the two norms: the f32 value both programs print for `1e-8`. -/
def floorWord : EReal := Ideal.ofBits .f32 0x322BCC77#32
/-- The value the running maximum starts from: the f32 word of `-inf`. -/
def bottomWord : EReal := Ideal.ofBits .f32 0xFF800000#32

variable {R T D : ℕ}

/-- The inner product of row `r` of `x` and row `t` of `y`. -/
def inner (x : Fin R → Fin D → EReal) (y : Fin T → Fin D → EReal) (r : Fin R) (t : Fin T) : EReal :=
  ∑ k : Fin D, x r k * y t k

/-- The Euclidean norm of row `n` of `z`. -/
def rowNorm {N : ℕ} (z : Fin N → Fin D → EReal) (n : Fin N) : EReal :=
  Ideal.sqrt (∑ k : Fin D, z n k * z n k)

/-- The cosine score of region `r` and token `t`. -/
def score (x : Fin R → Fin D → EReal) (y : Fin T → Fin D → EReal) (r : Fin R) (t : Fin T) : EReal :=
  Ideal.div (inner x y r t) (max (rowNorm x r * rowNorm y t) floorWord)

/-! ### The softmax over the regions of a score table -/

/-- Token `t`'s largest score over the regions. -/
def peak (σ : Fin R → Fin T → EReal) (t : Fin T) : EReal :=
  max bottomWord ((Finset.univ : Finset (Fin R)).fold max bottomWord (fun r => σ r t))

/-- The exponential of a score with its token's largest one subtracted. -/
def spread (σ : Fin R → Fin T → EReal) (r : Fin R) (t : Fin T) : EReal :=
  Ideal.exp (σ r t - peak σ t)

/-- Token `t`'s normaliser: the sum of those exponentials over the regions. -/
def mass (σ : Fin R → Fin T → EReal) (t : Fin T) : EReal :=
  ∑ r : Fin R, spread σ r t

/-- The softmax weight of region `r` for token `t`. -/
def weight (σ : Fin R → Fin T → EReal) (r : Fin R) (t : Fin T) : EReal :=
  Ideal.div (spread σ r t) (mass σ t)

/-- The pooled feature `d` of token `t`: the regions' features weighted by the softmax of the cosine scores. -/
def pooled (x : Fin R → Fin D → EReal) (y : Fin T → Fin D → EReal) (t : Fin T) (d : Fin D) : EReal :=
  ∑ r : Fin R, weight (score x y) r t * x r d

end Cert.CosinePool

end
-- ==== Proof.KernelValue.lean ====
/-
  What the kernel body computes for one block of eight batch rows, read at an index: entry `(p, t, d)` of the stored
  value is the cosine-similarity pooling (Spec) of batch row `p` of the two loaded blocks. The body is cut into its
  stages — the two row norms, the scores, and the softmax over the region axis as a function of ANY score vector — and
  each stage is read at explicit coordinates; the conversions to the narrower float format are the identity on
  extended reals, and the matrix products are plain sums (KernelDots).
-/
import proofs.«140039_j13975823581397_1_alg».proof.Proof.Gen.KernelIdeal.Skeleton
import proofs.«140039_j13975823581397_1_alg».proof.Proof.KernelDots
import proofs.«140039_j13975823581397_1_alg».proof.Proof.LibKeepdims3
import proofs.«140039_j13975823581397_1_alg».proof.Proof.LibMidAxis3
import proofs.«140039_j13975823581397_1_alg».proof.Proof.Spec

noncomputable section

namespace Cert.KernelIdeal.Bridge

open Cert.KernelIdeal Cert.KernelIdeal.Gen Idealize.ShloMosaic Idealize.ShloMosaic.ValueIdx
open Cert.CosinePool Cert.LibKeepdims3 Cert.LibMidAxis3

/-! ### The stages of the body -/

/-- The Euclidean norms of the region rows of a block. -/
def kRegionNorm (v0 : Vec Ideal S8x36x1024 .f32) : FVec Ideal S8x36 .f32 :=
  sqrt (multiReduction .add [2] S8x36 (mulf v0 v0) 0x00000000#32 reduces_S8x36x1024_S8x36 (.inl rfl) rfl)

/-- The Euclidean norms of the token rows of a block. -/
def kTokenNorm (v1 : Vec Ideal S8x128x1024 .f32) : FVec Ideal S8x128 .f32 :=
  sqrt (multiReduction .add [2] S8x128 (mulf v1 v1) 0x00000000#32 reduces_S8x128x1024_S8x128 (.inl rfl) rfl)

/-- The cosine scores of a block. -/
def kScores (v0 : Vec Ideal S8x36x1024 .f32) (v1 : Vec Ideal S8x128x1024 .f32) : FVec Ideal S8x36x128 .f32 :=
  divf (matmul dot_S8x36x1024_S8x128x1024_S8x36x128_2_2_1_1_0_0 none (truncf .bf16 v0 bitsLt_bf16_f32) (truncf .bf16 v1 bitsLt_bf16_f32) (constant S8x36x128 .f32 0x00000000#32))
    (maximumf
      (mulf (broadcastTo S8x36x128 (shapeCast S8x36x1 (kRegionNorm v0) shapeCasts_S8x36_S8x36x1) broadcasts_S8x36x1_S8x36x128)
        (broadcastTo S8x36x128 (shapeCast S8x1x128 (kTokenNorm v1) shapeCasts_S8x128_S8x1x128) broadcasts_S8x1x128_S8x36x128))
      (broadcast S8x36x128 (Scalar.ofBits .f32 0x322BCC77#32)))

/-- Each token's largest score over the regions. -/
def kPeak (s : FVec Ideal S8x36x128 .f32) : FVec Ideal S8x128 .f32 :=
  maximumf (broadcast S8x128 (Scalar.ofBits .f32 0xFF800000#32))
    (multiReduction .maximumf [1] S8x128 s 0xFF800000#32 reduces_S8x36x128_S8x128 (.inl rfl) rfl)

/-- The exponentials of the scores with each token's largest one subtracted. -/
def kSpread (s : FVec Ideal S8x36x128 .f32) : FVec Ideal S8x36x128 .f32 :=
  exp (subf s (broadcastTo S8x36x128 (shapeCast S8x1x128 (kPeak s) shapeCasts_S8x128_S8x1x128) broadcasts_S8x1x128_S8x36x128))

/-- The softmax weights over the regions. -/
def kWeights (s : FVec Ideal S8x36x128 .f32) : FVec Ideal S8x36x128 .f32 :=
  divf (kSpread s)
    (broadcastTo S8x36x128
      (shapeCast S8x1x128 (multiReduction .add [1] S8x128 (kSpread s) 0x00000000#32 reduces_S8x36x128_S8x128 (.inl rfl) rfl) shapeCasts_S8x128_S8x1x128)
      broadcasts_S8x1x128_S8x36x128)

/-- The body's stored value is the pooling product of the softmax weights of the scores with the region block. -/
theorem payload_eq (v0 : Vec Ideal S8x36x1024 .f32) (v1 : Vec Ideal S8x128x1024 .f32) :
    k0_pay1 (F := Ideal) v0 v1
      = matmul dot_S8x36x128_S8x36x1024_S8x128x1024_1_1_2_2_0_0 none (truncf .bf16 (kWeights (kScores v0 v1)) bitsLt_bf16_f32) (truncf .bf16 v0 bitsLt_bf16_f32)
          (constant S8x128x1024 .f32 0x00000000#32) := rfl

/-! ### Each stage at coordinates -/

theorem kRegionNorm_apply (v0 : Vec Ideal S8x36x1024 .f32) (p : Fin 8) (n : Fin 36) :
    kRegionNorm v0 (ix2 p n) = rowNorm (slab v0 p) n :=
  congrArg Ideal.sqrt (lanesum_apply (mulf v0 v0) 0x00000000#32 reduces_S8x36x1024_S8x36 (.inl rfl) rfl p n)

theorem kTokenNorm_apply (v1 : Vec Ideal S8x128x1024 .f32) (p : Fin 8) (t : Fin 128) :
    kTokenNorm v1 (ix2 p t) = rowNorm (slab v1 p) t :=
  congrArg Ideal.sqrt (lanesum_apply (mulf v1 v1) 0x00000000#32 reduces_S8x128x1024_S8x128 (.inl rfl) rfl p t)

theorem kScores_apply (v0 : Vec Ideal S8x36x1024 .f32) (v1 : Vec Ideal S8x128x1024 .f32) (p : Fin 8) (n : Fin 36) (t : Fin 128) :
    kScores v0 v1 (ix3 p n t) = score (slab v0 p) (slab v1 p) n t := by
  have e0 := scoreDot_apply (truncf .bf16 v0 bitsLt_bf16_f32) (truncf .bf16 v1 bitsLt_bf16_f32) p n t
  have e1 : broadcastTo S8x36x128 (shapeCast S8x36x1 (kRegionNorm v0) shapeCasts_S8x36_S8x36x1) broadcasts_S8x36x1_S8x36x128 (ix3 p n t)
      = rowNorm (slab v0 p) n :=
    (broadcastTo_lane_apply _ broadcasts_S8x36x1_S8x36x128 p n t).trans
      ((shapeCast_keep_apply _ shapeCasts_S8x36_S8x36x1 p n).trans (kRegionNorm_apply v0 p n))
  have e2 : broadcastTo S8x36x128 (shapeCast S8x1x128 (kTokenNorm v1) shapeCasts_S8x128_S8x1x128) broadcasts_S8x1x128_S8x36x128 (ix3 p n t)
      = rowNorm (slab v1 p) t :=
    (keepMid_apply _ shapeCasts_S8x128_S8x1x128 broadcasts_S8x1x128_S8x36x128 p n t).trans (kTokenNorm_apply v1 p t)
  show Ideal.div (matmul (F := Ideal) dot_S8x36x1024_S8x128x1024_S8x36x128_2_2_1_1_0_0 none (truncf .bf16 v0 bitsLt_bf16_f32) (truncf .bf16 v1 bitsLt_bf16_f32) (constant S8x36x128 .f32 0x00000000#32) (ix3 p n t))
      (max (broadcastTo S8x36x128 (shapeCast S8x36x1 (kRegionNorm v0) shapeCasts_S8x36_S8x36x1) broadcasts_S8x36x1_S8x36x128 (ix3 p n t)
          * broadcastTo S8x36x128 (shapeCast S8x1x128 (kTokenNorm v1) shapeCasts_S8x128_S8x1x128) broadcasts_S8x1x128_S8x36x128 (ix3 p n t))
        floorWord) = _
  rw [e0, e1, e2]
  rfl

theorem kPeak_apply (s : FVec Ideal S8x36x128 .f32) (p : Fin 8) (t : Fin 128) :
    kPeak s (ix2 p t) = peak (slab s p) t :=
  congrArg (max bottomWord) (midmax_apply s 0xFF800000#32 reduces_S8x36x128_S8x128 (.inl rfl) rfl p t)

theorem kSpread_apply (s : FVec Ideal S8x36x128 .f32) (p : Fin 8) (n : Fin 36) (t : Fin 128) :
    kSpread s (ix3 p n t) = spread (slab s p) n t := by
  have e : broadcastTo S8x36x128 (shapeCast S8x1x128 (kPeak s) shapeCasts_S8x128_S8x1x128) broadcasts_S8x1x128_S8x36x128 (ix3 p n t)
      = peak (slab s p) t :=
    (keepMid_apply _ shapeCasts_S8x128_S8x1x128 broadcasts_S8x1x128_S8x36x128 p n t).trans (kPeak_apply s p t)
  show Ideal.exp (s (ix3 p n t)
      - broadcastTo S8x36x128 (shapeCast S8x1x128 (kPeak s) shapeCasts_S8x128_S8x1x128) broadcasts_S8x1x128_S8x36x128 (ix3 p n t)) = _
  rw [e]
  rfl

theorem kWeights_apply (s : FVec Ideal S8x36x128 .f32) (p : Fin 8) (n : Fin 36) (t : Fin 128) :
    kWeights s (ix3 p n t) = weight (slab s p) n t := by
  have e : broadcastTo S8x36x128
      (shapeCast S8x1x128 (multiReduction .add [1] S8x128 (kSpread s) 0x00000000#32 reduces_S8x36x128_S8x128 (.inl rfl) rfl) shapeCasts_S8x128_S8x1x128)
      broadcasts_S8x1x128_S8x36x128 (ix3 p n t) = mass (slab s p) t :=
    (keepMid_apply _ shapeCasts_S8x128_S8x1x128 broadcasts_S8x1x128_S8x36x128 p n t).trans
      ((midsum_apply (kSpread s) 0x00000000#32 reduces_S8x36x128_S8x128 (.inl rfl) rfl p t).trans
        (Finset.sum_congr rfl fun k _ => kSpread_apply s p k t))
  show Ideal.div (kSpread s (ix3 p n t))
      (broadcastTo S8x36x128
        (shapeCast S8x1x128 (multiReduction .add [1] S8x128 (kSpread s) 0x00000000#32 reduces_S8x36x128_S8x128 (.inl rfl) rfl) shapeCasts_S8x128_S8x1x128)
        broadcasts_S8x1x128_S8x36x128 (ix3 p n t)) = _
  rw [e, kSpread_apply]
  rfl

/-- The scores of batch row `p`, as a table, are the cosine scores of its region and token rows. -/
theorem slab_kScores (v0 : Vec Ideal S8x36x1024 .f32) (v1 : Vec Ideal S8x128x1024 .f32) (p : Fin 8) :
    slab (kScores v0 v1) p = score (slab v0 p) (slab v1 p) :=
  funext fun n => funext fun t => kScores_apply v0 v1 p n t

/-- THE BODY AT AN INDEX: entry `(p, t, d)` of the stored value is the pooling of batch row `p` of the two blocks. -/
theorem payload_apply (v0 : Vec Ideal S8x36x1024 .f32) (v1 : Vec Ideal S8x128x1024 .f32) (p : Fin 8) (t : Fin 128) (d : Fin 1024) :
    k0_pay1 (F := Ideal) v0 v1 (ix3 p t d) = pooled (slab v0 p) (slab v1 p) t d := by
  rw [payload_eq]
  refine (poolDot_apply _ _ p t d).trans (Finset.sum_congr rfl fun n _ => ?_)
  show kWeights (kScores v0 v1) (ix3 p n t) * v0 (ix3 p n d) = _
  rw [kWeights_apply, slab_kScores]
  rfl

end Cert.KernelIdeal.Bridge

end
-- ==== Proof.Blocks.lean ====
/-
  From blocks to the whole array. Grid point `t` stages batch rows `8t … 8t+7` of both argument arrays and writes back
  the same eight batch rows of the result; the other two axes are whole. Every entry of a block's result depends only
  on its own batch row, so block `t` of the result is the restriction to those rows of ONE function of the argument
  arrays: entry `(b, t, d)` is the cosine-similarity pooling (Spec) of batch row `b`. The sixteen blocks tile the
  result array, so after the run the array is that function.
-/
import proofs.«140039_j13975823581397_1_alg».proof.Proof.Gen.KernelIdeal.Value
import proofs.«140039_j13975823581397_1_alg».proof.Proof.KernelValue

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)
open Cert.CosinePool

/-- The result array as one function of the two argument arrays: entry `(b, t, d)` is the pooling of batch row `b`. -/
def pooledArray (a0 : S128x36x1024.Idx → EReal) (a1 : S128x128x1024.Idx → EReal) : S128x128x1024.Idx → EReal :=
  fun i => pooled (slab a0 (i 0)) (slab a1 (i 0)) (i 1) (i 2)

/-- One block against the arrays: if the loaded blocks are batch rows `8q … 8q+7` of the arrays and the array index `i`
    is the block index `j` moved down by `8q` batch rows, the body's value at `j` is the array function at `i`. -/
theorem block_entry (v0 : Vec Ideal S8x36x1024 .f32) (v1 : Vec Ideal S8x128x1024 .f32)
    (a0 : S128x36x1024.Idx → EReal) (a1 : S128x128x1024.Idx → EReal) (q : ℕ)
    (j : S8x128x1024.Idx) (i : S128x128x1024.Idx)
    (hi0 : (i 0).val = q * 8 + (j 0).val) (hi1 : (i 1).val = (j 1).val) (hi2 : (i 2).val = (j 2).val)
    (h0 : ∀ (p : Fin 8) (n : Fin 36) (k : Fin 1024) (b : Fin 128), b.val = q * 8 + p.val → v0 (ix3 p n k) = a0 (ix3 b n k))
    (h1 : ∀ (p : Fin 8) (n : Fin 128) (k : Fin 1024) (b : Fin 128), b.val = q * 8 + p.val → v1 (ix3 p n k) = a1 (ix3 b n k)) :
    k0_pay1 (F := Ideal) v0 v1 j = pooledArray a0 a1 i := by
  obtain ⟨p, t, d, rfl⟩ : ∃ (p : Fin 8) (t : Fin 128) (d : Fin 1024), j = ix3 p t d := ⟨j 0, j 1, j 2, eq_ix3 j⟩
  rw [payload_apply]
  have e1 : i 1 = t := Fin.ext hi1
  have e2 : i 2 = d := Fin.ext hi2
  have s0 : slab v0 p = slab a0 (i 0) := funext fun n => funext fun k => h0 p n k (i 0) hi0
  have s1 : slab v1 p = slab a1 (i 0) := funext fun n => funext fun k => h1 p n k (i 0) hi0
  show pooled (slab v0 p) (slab v1 p) t d = pooled (slab a0 (i 0)) (slab a1 (i 0)) (i 1) (i 2)
  rw [s0, s1, e1, e2]

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The printed index maps over the sixteen grid points: both inputs' blocks move with the output's along the batch
    axis, and no window moves along the other two axes. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 15 :=
  (by decide +kernel : ∀ t : Fin grid0.N, _)

/-- Every block of eight batch rows is some point's. -/
theorem index_onto : ∀ q0 : Fin 16, ∃ t : Fin cfg0.N, win0_2.index t = ![q0.val, 0, 0] :=
  (by decide +kernel : ∀ q0 : Fin 16, ∃ t : Fin grid0.N, win0_2.index t = ![q0.val, 0, 0])

/-- WHAT POINT `t` WRITES BACK is block `t` of the array function of the argument arrays as the region finds them. -/
theorem flushed_eq (c : Dev nD) (t : Fin cfg0.N) :
    (dats m 0 c).flushed 2 t
      = ((cfg0.win 2).blk t).view.read (Elt Ideal) (pooledArray (V m c main_arg0) (V m c main_arg1)) := by
  rw [Cert.KernelIdeal.Value.flushed2]
  unfold out0_2
  rw [View.canon_unit_zero zeroOffsets]
  simp only [View.ld_unit_zero (S := S8x36x1024) zeroOffsets, View.ld_unit_zero (S := S8x128x1024) zeroOffsets]
  obtain ⟨f00, f01, f02, f10, f11, f12, f21, f22, f20⟩ := index_facts t
  funext j
  refine block_entry (iblk m c 0 t) (iblk m c 1 t) (V m c main_arg0) (V m c main_arg1) (win0_2.index t (0 : Fin 3)) j
    (((cfg0.win 2).blk t).view.emb j) ?_ ?_ ?_ ?_ ?_
  · show win0_2.index t (0 : Fin 3) * 8 + 1 * (j 0).val = win0_2.index t (0 : Fin 3) * 8 + (j 0).val
    omega
  · show win0_2.index t (1 : Fin 3) * 128 + 1 * (j 1).val = (j 1).val
    omega
  · show win0_2.index t (2 : Fin 3) * 1024 + 1 * (j 2).val = (j 2).val
    omega
  · intro p n k b hb
    show V m c main_arg0 (((cfg0.win 0).blk t).view.emb (ix3 p n k)) = V m c main_arg0 (ix3 b n k)
    refine congrArg (V m c main_arg0) (funext fun a => Fin.ext ?_)
    match a with
    | ⟨0, _⟩ => show win0_0.index t (0 : Fin 3) * 8 + 1 * p.val = b.val; omega
    | ⟨1, _⟩ => show win0_0.index t (1 : Fin 3) * 36 + 1 * n.val = n.val; omega
    | ⟨2, _⟩ => show win0_0.index t (2 : Fin 3) * 1024 + 1 * k.val = k.val; omega
  · intro p n k b hb
    show V m c main_arg1 (((cfg0.win 1).blk t).view.emb (ix3 p n k)) = V m c main_arg1 (ix3 b n k)
    refine congrArg (V m c main_arg1) (funext fun a => Fin.ext ?_)
    match a with
    | ⟨0, _⟩ => show win0_1.index t (0 : Fin 3) * 8 + 1 * p.val = b.val; omega
    | ⟨1, _⟩ => show win0_1.index t (1 : Fin 3) * 128 + 1 * n.val = n.val; omega
    | ⟨2, _⟩ => show win0_1.index t (2 : Fin 3) * 1024 + 1 * k.val = k.val; omega

/-- An index of the result array is in point `t`'s block iff each coordinate is in the block's range on its axis. -/
theorem mem_block (t : Fin cfg0.N) (i : S128x128x1024.Idx) :
    i ∈ ((cfg0.win 2).blk t).view.set ↔ ∀ a : Fin 3, win0_2.index t a * S8x128x1024.size a ≤ (i a).val
      ∧ (i a).val < win0_2.index t a * S8x128x1024.size a + S8x128x1024.size a := by
  show i ∈ ((View.whole main_v0).slice (win0_2.rect t)).set ↔ _
  rw [View.set_slice_whole, Rect.mem_set_unit]
  exact Iff.rfl

/-- The sixteen blocks tile the result array: batch row `b` is in the block of the point whose index is `b / 8`. -/
theorem blocks_cover (i : S128x128x1024.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 1024 := (i 2).isLt
  obtain ⟨t, ht⟩ := index_onto ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

/-- THE RESULT ARRAY after the run is the array function of the argument arrays. -/
theorem final (c : Dev nD) :
    (dats m 0 c).arrAt 2 cfg0.N
      = pooledArray (m ((c : Thread nD τ).loc main_arg0)) (m ((c : Thread nD τ).loc main_arg1)) :=
  (dats m 0 c).arrAt_eq_of_cover 2 (pooledArray (V m c main_arg0) (V m c main_arg1)) (fun t _ => flushed_eq m c t) blocks_cover

/-- The kernel's run: every weakly fair execution terminates with the result array at the array function of the
    arguments, and the arguments unchanged. -/
theorem run : θ_run defs (onTc (τ := τ) (main (F := Ideal))) ⟨m, fun _ => 0, ρ⟩ fun r => ∀ c : Dev nD,
      r.2.mem ((c : Thread nD τ).loc main_v0)
        = pooledArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Bridge

end
-- ==== Proof.RefValue.lean ====
/-
  What the reference computes, read at an index: entry `(b, t, d)` of its result is the cosine-similarity pooling
  (Spec) of batch row `b` of the two argument arrays. The generated read-at-an-index lemmas give each host operation
  at an index from its operands at an index; here they are chained, stage by stage, at explicit coordinates, and the
  composed index maps are identified with the coordinates they name. The one operation read by hand is the maximum
  over the region axis (LibMidAxis3). The sums' zero initial values drop out.
-/
import proofs.«140039_j13975823581397_1_alg».proof.Proof.Gen.ReferenceIdeal.Read
import proofs.«140039_j13975823581397_1_alg».proof.Proof.LibMidAxis3
import proofs.«140039_j13975823581397_1_alg».proof.Proof.Spec
import Idealize.ShloMosaic.PureOps.Ideal.Laws

noncomputable section

namespace Cert.ReferenceIdeal.Bridge

open Cert.ReferenceIdeal Cert.ReferenceIdeal.Gen Cert.ReferenceIdeal.Read Idealize.ShloMosaic Idealize.ShloMosaic.ValueIdx
open Cert.CosinePool Cert.LibMidAxis3

/-- The region norms: entry `(b, r)` is the Euclidean norm of region row `(b, r)`. -/
theorem regionNorm_apply (x0 : (⟨S128x36x1024, .f32⟩ : BufTy).Contents (Elt Ideal)) (b : Fin 128) (r : Fin 36) :
    val_main_v1 (F := Ideal) x0 (ix2 b r) = rowNorm (slab x0 b) r := by
  show Ideal.sqrt (val_main_call0_v1 (F := Ideal) x0 (ix2 b r)) = Ideal.sqrt _
  rw [val_main_call0_v1_apply]
  show Ideal.sqrt (Ideal.ofBits .f32 0x00000000#32 + _) = _
  rw [Ideal.ofBits_zero_f32, zero_add]
  refine congrArg Ideal.sqrt (Finset.sum_congr rfl fun k _ => ?_)
  show x0 (idx_main_call0_v1 (ix2 b r) k) * x0 (idx_main_call0_v1 (ix2 b r) k) = _
  rw [show idx_main_call0_v1 (ix2 b r) k = ix3 b r k from funext fun a => Fin.ext (by match a with | ⟨0, _⟩ => rfl | ⟨1, _⟩ => rfl | ⟨2, _⟩ => rfl)]
  rfl

/-- The token norms: entry `(b, t)` is the Euclidean norm of token row `(b, t)`. -/
theorem tokenNorm_apply (x1 : (⟨S128x128x1024, .f32⟩ : BufTy).Contents (Elt Ideal)) (b : Fin 128) (t : Fin 128) :
    val_main_v2 (F := Ideal) x1 (ix2 b t) = rowNorm (slab x1 b) t := by
  show Ideal.sqrt (val_main_call1_v1 (F := Ideal) x1 (ix2 b t)) = Ideal.sqrt _
  rw [val_main_call1_v1_apply]
  show Ideal.sqrt (Ideal.ofBits .f32 0x00000000#32 + _) = _
  rw [Ideal.ofBits_zero_f32, zero_add]
  refine congrArg Ideal.sqrt (Finset.sum_congr rfl fun k _ => ?_)
  show x1 (idx_main_call1_v1 (ix2 b t) k) * x1 (idx_main_call1_v1 (ix2 b t) k) = _
  rw [show idx_main_call1_v1 (ix2 b t) k = ix3 b t k from funext fun a => Fin.ext (by match a with | ⟨0, _⟩ => rfl | ⟨1, _⟩ => rfl | ⟨2, _⟩ => rfl)]
  rfl

/-- The score numerators: entry `(b, r, t)` is the inner product of region row `(b, r)` and token row `(b, t)`. -/
theorem inner_apply (x0 : (⟨S128x36x1024, .f32⟩ : BufTy).Contents (Elt Ideal)) (x1 : (⟨S128x128x1024, .f32⟩ : BufTy).Contents (Elt Ideal)) (b : Fin 128) (r : Fin 36) (t : Fin 128) :
    val_main_v0 (F := Ideal) x0 x1 (ix3 b r t) = inner (slab x0 b) (slab x1 b) r t := by
  rw [val_main_v0_apply]
  refine Finset.sum_congr rfl fun k _ => ?_
  rw [show lidx_main_v0 (ix3 b r t) k = ix3 b r k from funext fun a => Fin.ext (by match a with | ⟨0, _⟩ => rfl | ⟨1, _⟩ => rfl | ⟨2, _⟩ => rfl),
    show ridx_main_v0 (ix3 b r t) k = ix3 b t k from funext fun a => Fin.ext (by match a with | ⟨0, _⟩ => rfl | ⟨1, _⟩ => rfl | ⟨2, _⟩ => rfl)]
  rfl

/-- The scores: entry `(b, r, t)` is the cosine score of region `r` and token `t` of batch row `b`. -/
theorem scores_apply (x0 : (⟨S128x36x1024, .f32⟩ : BufTy).Contents (Elt Ideal)) (x1 : (⟨S128x128x1024, .f32⟩ : BufTy).Contents (Elt Ideal)) (b : Fin 128) (r : Fin 36) (t : Fin 128) :
    val_main_v10 (F := Ideal) x0 x1 (ix3 b r t) = score (slab x0 b) (slab x1 b) r t := by
  have e5 : val_main_v5 (F := Ideal) x0 (ix3 b r t) = rowNorm (slab x0 b) r := by
    rw [val_main_v5_apply, val_main_v3_apply,
      show idx_main_v3 (idx_main_v5 (ix3 b r t)) = ix2 b r from funext fun a => Fin.ext (by match a with | ⟨0, _⟩ => rfl | ⟨1, _⟩ => rfl)]
    exact regionNorm_apply x0 b r
  have e6 : val_main_v6 (F := Ideal) x1 (ix3 b r t) = rowNorm (slab x1 b) t := by
    rw [val_main_v6_apply, val_main_v4_apply,
      show idx_main_v4 (idx_main_v6 (ix3 b r t)) = ix2 b t from funext fun a => Fin.ext (by match a with | ⟨0, _⟩ => rfl | ⟨1, _⟩ => rfl)]
    exact tokenNorm_apply x1 b t
  have e8 : val_main_v8 (F := Ideal) (ix3 b r t) = floorWord := by
    rw [val_main_v8_apply]; rfl
  show Ideal.div (val_main_v0 (F := Ideal) x0 x1 (ix3 b r t))
      (max (val_main_v5 (F := Ideal) x0 (ix3 b r t) * val_main_v6 (F := Ideal) x1 (ix3 b r t)) (val_main_v8 (F := Ideal) (ix3 b r t))) = _
  rw [inner_apply, e5, e6, e8]
  rfl

/-- The scores of batch row `b`, as a table. -/
theorem slab_scores (x0 : (⟨S128x36x1024, .f32⟩ : BufTy).Contents (Elt Ideal)) (x1 : (⟨S128x128x1024, .f32⟩ : BufTy).Contents (Elt Ideal)) (b : Fin 128) :
    slab (val_main_v10 (F := Ideal) x0 x1) b = score (slab x0 b) (slab x1 b) :=
  funext fun r => funext fun t => scores_apply x0 x1 b r t

/-- Each token's largest score: entry `(b, t)`. -/
theorem peak_apply (x0 : (⟨S128x36x1024, .f32⟩ : BufTy).Contents (Elt Ideal)) (x1 : (⟨S128x128x1024, .f32⟩ : BufTy).Contents (Elt Ideal)) (b : Fin 128) (t : Fin 128) :
    val_main_v13 (F := Ideal) x0 x1 (ix2 b t) = peak (slab (val_main_v10 (F := Ideal) x0 x1) b) t := by
  have e12 : val_main_v12 (F := Ideal) (ix2 b t) = bottomWord := by
    rw [val_main_v12_apply]; rfl
  have e11 : val_main_v11 (F := Ideal) x0 x1 (ix2 b t)
      = (Finset.univ : Finset (Fin 36)).fold max bottomWord (fun k => val_main_v10 (F := Ideal) x0 x1 (ix3 b k t)) :=
    hostMidmax_apply (val_main_v10 (F := Ideal) x0 x1) (val_main_cst_0 (F := Ideal)) reducesTo_S128x36x128_S128x128_d1 (by decide) h_S_ b t
  show max (val_main_v12 (F := Ideal) (ix2 b t)) (val_main_v11 (F := Ideal) x0 x1 (ix2 b t)) = _
  rw [e12, e11]
  rfl

/-- The exponentials: entry `(b, r, t)`. -/
theorem spread_apply (x0 : (⟨S128x36x1024, .f32⟩ : BufTy).Contents (Elt Ideal)) (x1 : (⟨S128x128x1024, .f32⟩ : BufTy).Contents (Elt Ideal)) (b : Fin 128) (r : Fin 36) (t : Fin 128) :
    val_main_v17 (F := Ideal) x0 x1 (ix3 b r t) = spread (slab (val_main_v10 (F := Ideal) x0 x1) b) r t := by
  have e15 : val_main_v15 (F := Ideal) x0 x1 (ix3 b r t) = peak (slab (val_main_v10 (F := Ideal) x0 x1) b) t := by
    rw [val_main_v15_apply, val_main_v14_apply,
      show idx_main_v14 (idx_main_v15 (ix3 b r t)) = ix2 b t from funext fun a => Fin.ext (by match a with | ⟨0, _⟩ => rfl | ⟨1, _⟩ => rfl)]
    exact peak_apply x0 x1 b t
  show Ideal.exp (val_main_v10 (F := Ideal) x0 x1 (ix3 b r t) - val_main_v15 (F := Ideal) x0 x1 (ix3 b r t)) = _
  rw [e15]
  rfl

/-- The softmax weights: entry `(b, r, t)`. -/
theorem weight_apply (x0 : (⟨S128x36x1024, .f32⟩ : BufTy).Contents (Elt Ideal)) (x1 : (⟨S128x128x1024, .f32⟩ : BufTy).Contents (Elt Ideal)) (b : Fin 128) (r : Fin 36) (t : Fin 128) :
    val_main_v21 (F := Ideal) x0 x1 (ix3 b r t) = weight (slab (val_main_v10 (F := Ideal) x0 x1) b) r t := by
  have e18 : val_main_v18 (F := Ideal) x0 x1 (ix2 b t) = mass (slab (val_main_v10 (F := Ideal) x0 x1) b) t := by
    rw [val_main_v18_apply]
    show Ideal.ofBits .f32 0x00000000#32 + _ = _
    rw [Ideal.ofBits_zero_f32, zero_add]
    refine Finset.sum_congr rfl fun k _ => ?_
    rw [show idx_main_v18 (ix2 b t) k = ix3 b k t from funext fun a => Fin.ext (by match a with | ⟨0, _⟩ => rfl | ⟨1, _⟩ => rfl | ⟨2, _⟩ => rfl)]
    exact spread_apply x0 x1 b k t
  have e20 : val_main_v20 (F := Ideal) x0 x1 (ix3 b r t) = mass (slab (val_main_v10 (F := Ideal) x0 x1) b) t := by
    rw [val_main_v20_apply, val_main_v19_apply,
      show idx_main_v19 (idx_main_v20 (ix3 b r t)) = ix2 b t from funext fun a => Fin.ext (by match a with | ⟨0, _⟩ => rfl | ⟨1, _⟩ => rfl)]
    exact e18
  show Ideal.div (val_main_v17 (F := Ideal) x0 x1 (ix3 b r t)) (val_main_v20 (F := Ideal) x0 x1 (ix3 b r t)) = _
  rw [spread_apply, e20]
  rfl

/-- THE REFERENCE AT AN INDEX: entry `(b, t, d)` of its result is the pooling of batch row `b` of the arguments. -/
theorem result_apply (x0 : (⟨S128x36x1024, .f32⟩ : BufTy).Contents (Elt Ideal)) (x1 : (⟨S128x128x1024, .f32⟩ : BufTy).Contents (Elt Ideal)) (b : Fin 128) (t : Fin 128) (d : Fin 1024) :
    val_main_v22 (F := Ideal) x0 x1 (ix3 b t d) = pooled (slab x0 b) (slab x1 b) t d := by
  rw [val_main_v22_apply]
  refine Finset.sum_congr rfl fun k _ => ?_
  rw [show lidx_main_v22 (ix3 b t d) k = ix3 b k t from funext fun a => Fin.ext (by match a with | ⟨0, _⟩ => rfl | ⟨1, _⟩ => rfl | ⟨2, _⟩ => rfl),
    show ridx_main_v22 (ix3 b t d) k = ix3 b k d from funext fun a => Fin.ext (by match a with | ⟨0, _⟩ => rfl | ⟨1, _⟩ => rfl | ⟨2, _⟩ => rfl),
    weight_apply, slab_scores]
  rfl

end Cert.ReferenceIdeal.Bridge

end
-- ==== Proof.lean ====
/-
  Cosine-similarity pooling: a Pallas kernel over blocks of eight batch rows against its jnp reference, equal over
  the extended reals.

  For each batch row both programs take the region features `x : 36 × 1024` and the caption-token features
  `y : 128 × 1024`, form the cosine score of every region and token — the inner product of the two rows over the
  product of their Euclidean norms, that product floored at the f32 value of 1e-8 —, take the softmax of the scores
  over the regions (the largest score subtracted before the exponential), and return for every token the regions'
  features weighted by it. The kernel computes this on bf16 copies of its operands for the two matrix products, which
  over the extended reals are the operands themselves, and on one block of eight batch rows per grid point; the
  reference computes it on the whole arrays. Operation by operation the two are the same function of a batch row
  (Spec): no law of arithmetic beyond reading each operation at an index is used, so the finiteness of the inputs is
  never opened. The kernel's side is KernelValue (the body at an index) and Blocks (the sixteen blocks tile the
  result); the reference's side is RefValue over its generated run. The idealisation rewrote nothing, so the
  kernel is its own idealisation.
-/
import proofs.«140039_j13975823581397_1_alg».proof.Defs
import proofs.«140039_j13975823581397_1_alg».proof.Proof.Gen.Kernel
import proofs.«140039_j13975823581397_1_alg».proof.Proof.Gen.Kernel.Skeleton
import proofs.«140039_j13975823581397_1_alg».proof.Proof.Gen.Kernel.Launch
import proofs.«140039_j13975823581397_1_alg».proof.Proof.Gen.Kernel.Points
import proofs.«140039_j13975823581397_1_alg».proof.Proof.Gen.Kernel.Frame
import proofs.«140039_j13975823581397_1_alg».proof.Proof.Gen.KernelIdeal
import proofs.«140039_j13975823581397_1_alg».proof.Proof.Gen.KernelIdeal.Skeleton
import proofs.«140039_j13975823581397_1_alg».proof.Proof.Gen.KernelIdeal.Launch
import proofs.«140039_j13975823581397_1_alg».proof.Proof.Gen.KernelIdeal.Points
import proofs.«140039_j13975823581397_1_alg».proof.Proof.Gen.KernelIdeal.Frame
import proofs.«140039_j13975823581397_1_alg».proof.Proof.Gen.ReferenceIdeal
import proofs.«140039_j13975823581397_1_alg».proof.Proof.Gen.Pre_finite_inputs
import proofs.«140039_j13975823581397_1_alg».proof.Proof.Gen.KernelIdeal.Value
import proofs.«140039_j13975823581397_1_alg».proof.Proof.Gen.ReferenceIdeal.Run
import proofs.«140039_j13975823581397_1_alg».proof.Proof.Gen.ReferenceIdeal.Read
import proofs.«140039_j13975823581397_1_alg».proof.Proof.Blocks
import proofs.«140039_j13975823581397_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- The reference's whole result is the array function the kernel's blocks assemble: entry `(b, t, d)` is the pooling of
    batch row `b`. -/
theorem reference_result (x0 : (⟨Cert.ReferenceIdeal.S128x36x1024, .f32⟩ : BufTy).Contents (Elt Ideal))
    (x1 : (⟨Cert.ReferenceIdeal.S128x128x1024, .f32⟩ : BufTy).Contents (Elt Ideal)) :
    Cert.ReferenceIdeal.Read.val_main_v22 (F := Ideal) x0 x1 = Cert.KernelIdeal.Bridge.pooledArray x0 x1 := by
  funext i
  obtain ⟨b, t, d, rfl⟩ : ∃ (b : Fin 128) (t : Fin 128) (d : Fin 1024), i = ix3 b t d := ⟨i 0, i 1, i 2, eq_ix3 i⟩
  exact Cert.ReferenceIdeal.Bridge.result_apply x0 x1 b t d

/-- From memories agreeing on the arguments both programs end with the same result array: the array function of the
    arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1]
  exact reference_result _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
